-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S2x16000000 : Shape := ⟨2, ![2, 16000000]⟩
abbrev S16000000 : Shape := ⟨1, ![16000000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S32 .f32) (main_arg13 : FVec F S32x32 .f32) (main_arg14 : FVec F S32 .f32) (main_arg15 : FVec F S32x1 .f32) (main_arg16 : FVec F S1 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S32 .f32) (main_arg9 : FVec F S32x32 .f32) (main_arg10 : FVec F S32 .f32) (main_arg11 : FVec F S16x32 .f32) (main_arg12 : FVec F S32 .f32) (main_arg13 : FVec F S32x32 .f32) (main_arg14 : FVec F S32 .f32) (main_arg15 : FVec F S32x1 .f32) (main_arg16 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S16x32 .f32 := Host.absf main_arg11
  let main_cst_18 : FVec F S_ .f32 := constant S_ .f32 0x7F800000#32
  let main_v50 : FVec F S16x32 .f32 := broadcastInDim S16x32 ![] bcast_S_S16x32 main_cst_18
  fn_part3 (F := F) main_arg12 main_arg13 main_arg14 main_arg15 main_arg16 main_v48 main_v49 main_v50

def fn_part1 {F : FTy → Type} [FloatOps F] (main_arg5 : FVec F S32x32 .f32) (main_arg6 : FVec F S32 .f32) (main_arg7 : FVec F S16x32 .f32) (main_arg8 : FVec F S32 .f32) (main_arg9 : FVec F S32x32 .f32) (main_arg10 : FVec F S32 .f32) (main_arg11 : FVec F S16x32 .f32) (main_arg12 : FVec F S32 .f32) (main_arg13 : FVec F S32x32 .f32) (main_arg14 : FVec F S32 .f32) (main_arg15 : FVec F S32x1 .f32) (main_arg16 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S1000000x16 .f32) (main_arg1 : IVec S2x16000000 32) (main_arg2 : FVec F S16000000 .f32) (main_arg3 : FVec F S16x32 .f32) (main_arg4 : FVec F S32 .f32) (main_arg5 : FVec F S32x32 .f32) (main_arg6 : FVec F S32 .f32) (main_arg7 : FVec F S16x32 .f32) (main_arg8 : FVec F S32 .f32) (main_arg9 : FVec F S32x32 .f32) (main_arg10 : FVec F S32 .f32) (main_arg11 : FVec F S16x32 .f32) (main_arg12 : FVec F S32 .f32) (main_arg13 : FVec F S32x32 .f32) (main_arg14 : FVec F S32 .f32) (main_arg15 : FVec F S32x1 .f32) (main_arg16 : FVec F S1 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S1000000x16 : Shape := ⟨2, ![1000000, 16]⟩
abbrev S2x16000000 : Shape := ⟨2, ![2, 16000000]⟩
abbrev S16000000 : Shape := ⟨1, ![16000000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x32 : Shape := ⟨2, ![1, 32]⟩
abbrev S1x1 : Shape := ⟨2, ![1, 1]⟩
abbrev S1000000x1 : Shape := ⟨2, ![1000000, 1]⟩
abbrev S4000x16 : Shape := ⟨2, ![4000, 16]⟩
abbrev S4000x1 : Shape := ⟨2, ![4000, 1]⟩
abbrev S4000x32 : Shape := ⟨2, ![4000, 32]⟩

abbrev nBuf : Space → Nat
  | .hbm => 25
  | .vmem => 18
  | .smem => 0
  | _ => 0

abbrev bufTy : (tb : Table) → Fin (tcTables nBuf tb) → BufTy
  | .hbm, ⟨0, _⟩ => ⟨S1000000x16, .f32⟩
  | .hbm, ⟨1, _⟩ => ⟨S2x16000000, .i32⟩
  | .hbm, ⟨2, _⟩ => ⟨S16000000, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S16x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S16x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x1, .f32⟩
  | .hbm, ⟨24, _⟩ => ⟨S1000000x1, .f32⟩
  | .local _ .vmem, ⟨0, _⟩ => ⟨S4000x16, .f32⟩
  | .local _ .vmem, ⟨1, _⟩ => ⟨S4000x16, .f32⟩
  | .local _ .vmem, ⟨2, _⟩ => ⟨S16x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S16x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S16x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S4000x1, .f32⟩
  | .local _ .vmem, ⟨17, _⟩ => ⟨S4000x1, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S32_S1x32 : S32.ShapeCasts S1x32
  shapeCasts_S1_S1x1 : S1.ShapeCasts S1x1
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S4000x16_S16x32_S4000x32_1_0_0_1_n_n_wf : DotDims.WF S4000x16 S16x32 S4000x32 [1] [0] [0] [1] [] []
  dot_S4000x32_S32x32_S4000x32_1_0_0_1_n_n_wf : DotDims.WF S4000x32 S32x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1000000x16.size a
  hwx0_0 : ∀ i : grid0.Coords, EltTy.bits .f32 = 32 ∨ (Rect.block (s := S1000000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x1.size a ≤ S32x1.size a
  hwx0_13 : ∀ i : grid0.Coords, EltTy.bits .f32 = 32 ∨ (Rect.block (s := S32x1) S32x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x1.size a ≤ S1000000x1.size a
  hwx0_15 : ∀ i : grid0.Coords, EltTy.bits .f32 = 32 ∨ (Rect.block (s := S1000000x1) S4000x1.size (cc0_transform_15 i) (hinb0_15 i)).WholeWords (EltTy.packing .f32)

variable [Facts₀]

def dot_S4000x16_S16x32_S4000x32_1_0_0_1_n_n : DotDims S4000x16 S16x32 S4000x32 where
  lhsContracting := [1]
  rhsContracting := [0]
  lhsNonContracting := [0]
  rhsNonContracting := [1]
  lhsBatch := []
  rhsBatch := []
  wf := dot_S4000x16_S16x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S32x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S4000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S2x16000000 : Shape := ⟨2, ![2, 16000000]⟩
abbrev S16000000 : Shape := ⟨1, ![16000000]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S1000000x32 : Shape := ⟨2, ![1000000, 32]⟩
abbrev S1x32 : Shape := ⟨2, ![1, 32]⟩
abbrev S1000000x1 : Shape := ⟨2, ![1000000, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S2x16000000, .i32⟩
  | .hbm, ⟨2, _⟩ => ⟨S16000000, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S16x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S16x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S_, .f32⟩
  | .hbm, ⟨18, _⟩ => ⟨S1000000x32, .f32⟩
  | .hbm, ⟨19, _⟩ => ⟨S1000000x32, .f32⟩
  | .hbm, ⟨20, _⟩ => ⟨S1x32, .f32⟩
  | .hbm, ⟨21, _⟩ => ⟨S1000000x32, .f32⟩
  | .hbm, ⟨22, _⟩ => ⟨S1000000x32, .f32⟩
  | .hbm, ⟨23, _⟩ => ⟨S1000000x32, .f32⟩
  | .hbm, ⟨24, _⟩ => ⟨S1000000x32, .f32⟩
  | .hbm, ⟨25, _⟩ => ⟨S1x32, .f32⟩
  | .hbm, ⟨26, _⟩ => ⟨S1000000x32, .f32⟩
  | .hbm, ⟨27, _⟩ => ⟨S1000000x32, .f32⟩
  | .hbm, ⟨28, _⟩ => ⟨S1000000x32, .f32⟩
  | .hbm, ⟨29, _⟩ => ⟨S1000000x32, .f32⟩
  | .hbm, ⟨30, _⟩ => ⟨S_, .f32⟩
  | .hbm, ⟨31, _⟩ => ⟨S1000000x32, .f32⟩
  | .hbm, ⟨32, _⟩ => ⟨S1000000x32, .f32⟩
  | .hbm, ⟨33, _⟩ => ⟨S_, .f32⟩
  | .hbm, ⟨34, _⟩ => ⟨S1000000x32, .f32⟩
  | .hbm, ⟨35, _⟩ => ⟨S1000000x32, .f32⟩
  | .hbm, ⟨36, _⟩ => ⟨S1000000x32, .f32⟩
  | .hbm, ⟨37, _⟩ => ⟨S1x32, .f32⟩
  | .hbm, ⟨38, _⟩ => ⟨S1000000x32, .f32⟩
  | .hbm, ⟨39, _⟩ => ⟨S1000000x32, .f32⟩
  | .hbm, ⟨40, _⟩ => ⟨S1000000x32, .f32⟩
  | .hbm, ⟨41, _⟩ => ⟨S1000000x32, .f32⟩
  | .hbm, ⟨42, _⟩ => ⟨S1x32, .f32⟩
  | .hbm, ⟨43, _⟩ => ⟨S1000000x32, .f32⟩
  | .hbm, ⟨44, _⟩ => ⟨S1000000x32, .f32⟩
  | .hbm, ⟨45, _⟩ => ⟨S1000000x32, .f32⟩
  | .hbm, ⟨46, _⟩ => ⟨S1000000x32, .f32⟩
  | .hbm, ⟨47, _⟩ => ⟨S_, .f32⟩
  | .hbm, ⟨48, _⟩ => ⟨S1000000x32, .f32⟩
  | .hbm, ⟨49, _⟩ => ⟨S1000000x32, .f32⟩
  | .hbm, ⟨50, _⟩ => ⟨S_, .f32⟩
  | .hbm, ⟨51, _⟩ => ⟨S1000000x32, .f32⟩
  | .hbm, ⟨52, _⟩ => ⟨S1000000x32, .f32⟩
  | .hbm, ⟨53, _⟩ => ⟨S1000000x32, .f32⟩
  | .hbm, ⟨54, _⟩ => ⟨S1x32, .f32⟩
  | .hbm, ⟨55, _⟩ => ⟨S1000000x32, .f32⟩
  | .hbm, ⟨56, _⟩ => ⟨S1000000x32, .f32⟩
  | .hbm, ⟨57, _⟩ => ⟨S1000000x32, .f32⟩
  | .hbm, ⟨58, _⟩ => ⟨S1000000x32, .f32⟩
  | .hbm, ⟨59, _⟩ => ⟨S1000000x32, .f32⟩
  | .hbm, ⟨60, _⟩ => ⟨S1x32, .f32⟩
  | .hbm, ⟨61, _⟩ => ⟨S1000000x32, .f32⟩
  | .hbm, ⟨62, _⟩ => ⟨S1000000x32, .f32⟩
  | .hbm, ⟨63, _⟩ => ⟨S1000000x32, .f32⟩
  | .hbm, ⟨64, _⟩ => ⟨S1000000x32, .f32⟩
  | .hbm, ⟨65, _⟩ => ⟨S_, .f32⟩
  | .hbm, ⟨66, _⟩ => ⟨S1000000x32, .f32⟩
  | .hbm, ⟨67, _⟩ => ⟨S1000000x32, .f32⟩
  | .hbm, ⟨68, _⟩ => ⟨S1000000x32, .f32⟩
  | .hbm, ⟨69, _⟩ => ⟨S1000000x32, .f32⟩
  | .hbm, ⟨70, _⟩ => ⟨S_, .f32⟩
  | .hbm, ⟨71, _⟩ => ⟨S1000000x32, .f32⟩
  | .hbm, ⟨72, _⟩ => ⟨S1000000x32, .f32⟩
  | .hbm, ⟨73, _⟩ => ⟨S1000000x1, .f32⟩
  | .hbm, ⟨74, _⟩ => ⟨S1x1, .f32⟩
  | .hbm, ⟨75, _⟩ => ⟨S1000000x1, .f32⟩
  | .hbm, ⟨76, _⟩ => ⟨S1000000x1, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_cst : Ref sig .tc := ⟨.hbm, 70, rfl⟩
abbrev main_call0_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]

class Facts₀ : Prop where
  bcast_S_S1000000x32 : S_.BroadcastsInDim S1000000x32 (![] : Fin 0 → Fin S1000000x32.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x16_S16x32_S1000000x32_1_0_0_1_n_n_wf : DotDims.WF S1000000x16 S16x32 S1000000x32 [1] [0] [0] [1] [] []
  dot_S1000000x32_S32x32_S1000000x32_1_0_0_1_n_n_wf : DotDims.WF S1000000x32 S32x32 S1000000x32 [1] [0] [0] [1] [] []
  dot_S1000000x32_S32x1_S1000000x1_1_0_0_1_n_n_wf : DotDims.WF S1000000x32 S32x1 S1000000x1 [1] [0] [0] [1] [] []

variable [Facts₀]

def dot_S1000000x16_S16x32_S1000000x32_1_0_0_1_n_n : DotDims S1000000x16 S16x32 S1000000x32 where
  lhsContracting := [1]
  rhsContracting := [0]
  lhsNonContracting := [0]
  rhsNonContracting := [1]
  lhsBatch := []
  rhsBatch := []
  wf := dot_S1000000x16_S16x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.GruRow.lean ====
/-
  One row of a gated recurrent unit started from the zero hidden state, followed by a rectified linear read-out,
  on the extended reals.

  For an input row x of 16 features and 32 hidden units, a gate's pre-activation at unit j is

      pre x W bx bh j = (∑ k, x k · W k j + bx j) + bh j .

  The hidden state is zero, so the gate's hidden-side weights enter only through sums of products with zero, which
  vanish on the extended reals as well (0 · w = 0 for every w, ±∞ included); only the hidden-side bias bh stays.
  The update gate is z = logistic (pre x Wxz bxz bhz) and the candidate is c = tanh (pre x Wxh bxh bhh): the reset
  gate multiplies the zero state, so it never shows in the value.  The new state is z · 0 + (1 − z) · c = (1 − z) · c
  and the output is

      out = ∑ j, max ((1 − z j) · c j) 0 · Wlin j + blin .

  The two lemmas below say that two ways of writing this row down are this function.  The first keeps the zero state
  as a factor, groups each pre-activation as (input part) + (hidden part), and uses the logistic function itself.  The
  second groups each pre-activation from the left, ((x·W + bx) + 0·Wh) + bh, and spells the logistic function as
  1 / (1 + exp (−a)), which is its definition on the extended reals (0 at −∞, 1 at +∞).  Neither needs a finite
  input: only 0 · w = 0, 0 + a = a and the associativity of the sum are used.
-/
import Idealize.ShloMosaic.PureOps.Ideal
import Idealize.ShloMosaic.PureOps.Ideal.Laws

noncomputable section

open scoped BigOperators

namespace Cert.GruRow

open Idealize.ShloMosaic

/-- A gate's pre-activation at hidden unit `j` when the hidden state is zero. -/
def pre (x : Fin 16 → EReal) (W : Fin 16 → Fin 32 → EReal) (bx bh : Fin 32 → EReal) (j : Fin 32) : EReal :=
  (∑ k, x k * W k j + bx j) + bh j

/-- The new hidden state at unit `j`: `(1 − z) · c` with `z` the update gate and `c` the candidate. -/
def state (x : Fin 16 → EReal) (Wxz : Fin 16 → Fin 32 → EReal) (bxz bhz : Fin 32 → EReal)
    (Wxh : Fin 16 → Fin 32 → EReal) (bxh bhh : Fin 32 → EReal) (j : Fin 32) : EReal :=
  (1 - Ideal.logistic (pre x Wxz bxz bhz j)) * Ideal.tanh (pre x Wxh bxh bhh j)

/-- The row's output: the rectified new state times the read-out column, plus the read-out bias. -/
def out (x : Fin 16 → EReal) (Wxz : Fin 16 → Fin 32 → EReal) (bxz bhz : Fin 32 → EReal)
    (Wxh : Fin 16 → Fin 32 → EReal) (bxh bhh : Fin 32 → EReal) (Wlin : Fin 32 → EReal) (blin : EReal) : EReal :=
  ∑ j, max (state x Wxz bxz bhz Wxh bxh bhh j) 0 * Wlin j + blin

/-- The row written with the zero state `h0` kept as a factor (`h0` where it multiplies weights and the reset gate,
    `h0'` where it multiplies the update gate), each pre-activation grouped as (input part) + (hidden part), the
    constant one as `one` and the rectifier's zero as `z0`. -/
theorem grouped_form (x : Fin 16 → EReal) (Wxz Wxr Wxh : Fin 16 → Fin 32 → EReal) (Whz Whr Whh : Fin 32 → Fin 32 → EReal)
    (bxz bhz bxr bhr bxh bhh : Fin 32 → EReal) (Wlin : Fin 32 → EReal) (blin : EReal)
    (h0 h0' one z0 : EReal) (e0 : h0 = 0) (e0' : h0' = 0) (e1 : one = 1) (ez : z0 = 0) :
    (∑ j, max (Ideal.logistic ((∑ k, x k * Wxz k j + bxz j) + (∑ k, h0 * Whz k j + bhz j)) * h0'
          + (one - Ideal.logistic ((∑ k, x k * Wxz k j + bxz j) + (∑ k, h0 * Whz k j + bhz j)))
            * Ideal.tanh ((∑ k, x k * Wxh k j + bxh j)
                + (∑ k, (Ideal.logistic ((∑ l, x l * Wxr l k + bxr k) + (∑ l, h0 * Whr l k + bhr k)) * h0) * Whh k j + bhh j)))
          z0 * Wlin j) + blin
      = out x Wxz bxz bhz Wxh bxh bhh Wlin blin := by
  subst e0 e0' e1 ez
  simp only [zero_mul, mul_zero, Finset.sum_const_zero, zero_add]
  rfl

/-- The row written from the left, `((x·W + bx) + 0·Wh) + bh`, with the logistic function spelt `1 / (1 + exp (−a))`.
    The reset gate `R` multiplies the zero state, so it may be any family of extended reals. -/
theorem left_form (x : Fin 16 → EReal) (Wxz Wxh : Fin 16 → Fin 32 → EReal) (Whz Whh R : Fin 32 → Fin 32 → EReal)
    (bxz bhz bxh bhh : Fin 32 → EReal) (Wlin : Fin 32 → EReal) (blin : EReal)
    (h0 one z0 : EReal) (e0 : h0 = 0) (e1 : one = 1) (ez : z0 = 0) :
    (∑ j, max (Ideal.div one (one + Ideal.exp (-(((∑ k, x k * Wxz k j + bxz j) + ∑ k, h0 * Whz k j) + bhz j))) * h0
          + (one - Ideal.div one (one + Ideal.exp (-(((∑ k, x k * Wxz k j + bxz j) + ∑ k, h0 * Whz k j) + bhz j))))
            * Ideal.tanh (((∑ k, x k * Wxh k j + bxh j) + ∑ k, (R k j * h0) * Whh k j) + bhh j))
          z0 * Wlin j) + blin
      = out x Wxz bxz bhz Wxh bxh bhh Wlin blin := by
  subst e0 e1 ez
  simp only [zero_mul, mul_zero, Finset.sum_const_zero, zero_add, add_zero]
  rfl

end Cert.GruRow

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.KernelRow.lean ====
/-
  One row of the kernel's body, read at an index.

  The body works on a block of 4000 input rows.  Its stored value is, row by row, the gated-recurrent-unit row of
  `GruRow`: three input products x·W (16 → 32), three products of the zero hidden state with the hidden weights
  (32 → 32), each with its bias row broadcast down the block, the logistic and the hyperbolic tangent applied entry by
  entry, and the read-out product (32 → 1) with its bias.  Changes of number format are the identity on the extended
  reals, so the half-width copies of the operands are the operands themselves.

  Each matrix product contracts the second axis of its left operand with the first of its right operand and
  accumulates into the zero block, so at (p, j) it is the plain sum over the contracted coordinate; a bias stored as
  a 1 × n row and broadcast down the rows reads the row's entry j at (p, j).
-/
import proofs.«146388_j18511309046057_1_alg».proof.Proof.Gen.KernelIdeal.Frame
import proofs.«146388_j18511309046057_1_alg».proof.Proof.GruRow
import proofs.«146388_j18511309046057_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

open scoped BigOperators

namespace Cert.KernelIdeal.Row

open Cert.KernelIdeal Cert.KernelIdeal.Gen Idealize.ShloMosaic Idealize.ShloMosaic.ValueIdx

/-! ## The three matrix products and the two bias broadcasts, at an index -/

/-- The input product (4000 × 16 by 16 × 32) into the zero block, at (p, j). -/
theorem inputProduct_apply (A : FVec Ideal S4000x16 .bf16) (B : FVec Ideal S16x32 .bf16) (p : Fin 4000) (j : Fin 32) :
    matmul dot_S4000x16_S16x32_S4000x32_1_0_0_1_n_n none A B (constant S4000x32 .f32 0x00000000#32) (ix2 p j)
      = ∑ k : Fin 16, A (ix2 p k) * B (ix2 k j) :=
  MatmulNN.matmul_zero_apply none A B p j

/-- The hidden product (4000 × 32 by 32 × 32) into the zero block, at (p, j). -/
theorem hiddenProduct_apply (A : FVec Ideal S4000x32 .bf16) (B : FVec Ideal S32x32 .bf16) (p : Fin 4000) (j : Fin 32) :
    matmul dot_S4000x32_S32x32_S4000x32_1_0_0_1_n_n none A B (constant S4000x32 .f32 0x00000000#32) (ix2 p j)
      = ∑ k : Fin 32, A (ix2 p k) * B (ix2 k j) :=
  MatmulNN.matmul_zero_apply none A B p j

/-- The read-out product (4000 × 32 by 32 × 1) into the zero block, at (p, q). -/
theorem readoutProduct_apply (A : FVec Ideal S4000x32 .bf16) (B : FVec Ideal S32x1 .bf16) (p : Fin 4000) (q : Fin 1) :
    matmul dot_S4000x32_S32x1_S4000x1_1_0_0_1_n_n none A B (constant S4000x1 .f32 0x00000000#32) (ix2 p q)
      = ∑ k : Fin 32, A (ix2 p k) * B (ix2 k q) :=
  MatmulNN.matmul_zero_apply none A B p q

/-- A bias kept as a 1 × 32 row and broadcast down 4000 rows reads the row's entry j at (p, j). -/
theorem biasRow_apply (b : Vec Ideal S1x32 .f32) (p : Fin 4000) (j : Fin 32) :
    (broadcastTo S4000x32 (shapeCast S1x32 b shapeCasts_S1x32_S1x32 : FVec Ideal S1x32 .f32) broadcasts_S1x32_S4000x32
        : FVec Ideal S4000x32 .f32) (ix2 p j)
      = b (ix2 (0 : Fin 1) j) := by
  rw [shapeCast_self]
  exact broadcastTo_1b_ab_apply (α := Ideal .f32) b broadcasts_S1x32_S4000x32 p j

/-- The read-out bias kept as a 1 × 1 block and broadcast down 4000 rows reads its one entry at (p, q). -/
theorem biasCell_apply (b : Vec Ideal S1x1 .f32) (p : Fin 4000) (q : Fin 1) :
    (broadcastTo S4000x1 (shapeCast S1x1 b shapeCasts_S1x1_S1x1 : FVec Ideal S1x1 .f32) broadcasts_S1x1_S4000x1
        : FVec Ideal S4000x1 .f32) (ix2 p q)
      = b (ix2 (0 : Fin 1) q) := by
  rw [shapeCast_self]
  exact broadcastTo_1b_ab_apply (α := Ideal .f32) b broadcasts_S1x1_S4000x1 p q

/-- The logistic function of a block, entry by entry. -/
theorem logistic_apply {s : Shape} (v : FVec Ideal s .f32) (i : s.Idx) : logistic v i = Ideal.logistic (v i) := rfl

/-- The hyperbolic tangent of a block, entry by entry. -/
theorem tanh_apply {s : Shape} (v : FVec Ideal s .f32) (i : s.Idx) : tanh v i = Ideal.tanh (v i) := rfl

/-! ## The body's pieces at an index -/

/-- The half-width copy of the input block is the block. -/
theorem inputCopy_apply (v : Vec Ideal S4000x16 .f32) (i : S4000x16.Idx) : k0_pay2 v i = v i := rfl
/-- The half-width copies of the weight blocks are the blocks. -/
theorem hiddenWeightCopy_apply (v : Vec Ideal S32x32 .f32) (i : S32x32.Idx) : k0_pay3 v i = v i := rfl
theorem inputWeightCopy_apply (v : Vec Ideal S16x32 .f32) (i : S16x32.Idx) : k0_pay4 v i = v i := rfl
theorem hiddenWeightCopy'_apply (v : Vec Ideal S32x32 .f32) (i : S32x32.Idx) : k0_pay5 v i = v i := rfl
theorem readoutCopy_apply (v : Vec Ideal S32x1 .f32) (i : S32x1.Idx) : k0_pay6 v i = v i := rfl

/-- The hidden state the body starts from: the zero word in every entry. -/
theorem zeroState_apply (i : S4000x32.Idx) : k0_pay7 (F := Ideal) i = Ideal.ofBits .bf16 0x0000#16 := rfl

/-- The update gate at (p, j): the logistic function of (input part) + (hidden part). -/
theorem updateGate_apply (v0 : Vec Ideal S4000x16 .f32) (v2 : Vec Ideal S16x32 .f32) (v4 : Vec Ideal S32x32 .f32)
    (v18 v23 : Vec Ideal S1x32 .f32) (p : Fin 4000) (j : Fin 32) :
    k0_pay8 v0 v2 v4 v18 v23 (ix2 p j)
      = Ideal.logistic ((∑ k : Fin 16, v0 (ix2 p k) * v2 (ix2 k j) + v18 (ix2 (0 : Fin 1) j))
          + (∑ k : Fin 32, Ideal.ofBits .bf16 0x0000#16 * v4 (ix2 k j) + v23 (ix2 (0 : Fin 1) j))) := by
  unfold k0_pay8 k0_pay2 k0_pay7
  simp only [logistic_apply, addf_apply, inputProduct_apply, hiddenProduct_apply, biasRow_apply]
  rfl

/-- The reset gate's input product at (p, j). -/
theorem resetInput_apply (v0 : Vec Ideal S4000x16 .f32) (v6 : Vec Ideal S16x32 .f32) (p : Fin 4000) (j : Fin 32) :
    k0_pay9 v0 v6 (ix2 p j) = ∑ k : Fin 16, v0 (ix2 p k) * v6 (ix2 k j) := by
  unfold k0_pay9 k0_pay2
  simp only [inputProduct_apply]
  rfl

/-- The reset gate's input bias at (p, j). -/
theorem resetBias_apply (v30 : Vec Ideal S1x32 .f32) (p : Fin 4000) (j : Fin 32) :
    k0_pay10 v30 (ix2 p j) = v30 (ix2 (0 : Fin 1) j) := by
  unfold k0_pay10
  simp only [biasRow_apply]

/-- The stored block at (p, q), from the pieces computed before it: the update gate `v28`, the reset gate's input
    product `v29` and bias `v32`, the zero state `v16`, the operands' copies and the bias rows. -/
theorem stored_apply (v1 : FVec Ideal S4000x16 .bf16) (v9 : FVec Ideal S32x32 .bf16) (v11 : FVec Ideal S16x32 .bf16)
    (v13 : FVec Ideal S32x32 .bf16) (v15 : FVec Ideal S32x1 .bf16) (v16 : FVec Ideal S4000x32 .bf16)
    (v28 v29 v32 : FVec Ideal S4000x32 .f32) (v35 v44 v49 : Vec Ideal S1x32 .f32) (v65 : Vec Ideal S1x1 .f32)
    (p : Fin 4000) (q : Fin 1) :
    k0_pay1 v1 v9 v11 v13 v15 v16 v28 v29 v32 v35 v44 v49 v65 (ix2 p q)
      = (∑ j : Fin 32, max (v28 (ix2 p j) * v16 (ix2 p j)
            + (Ideal.ofBits .f32 0x3F800000#32 - v28 (ix2 p j))
              * Ideal.tanh ((∑ k : Fin 16, v1 (ix2 p k) * v11 (ix2 k j) + v44 (ix2 (0 : Fin 1) j))
                  + (∑ k : Fin 32, (Ideal.logistic ((v29 (ix2 p k) + v32 (ix2 p k))
                        + (∑ l : Fin 32, v16 (ix2 p l) * v9 (ix2 l k) + v35 (ix2 (0 : Fin 1) k))) * v16 (ix2 p k)) * v13 (ix2 k j)
                      + v49 (ix2 (0 : Fin 1) j))))
            (Ideal.ofBits .f32 0x00000000#32) * v15 (ix2 j q)) + v65 (ix2 (0 : Fin 1) q) := by
  unfold k0_pay1
  simp only [addf_apply, readoutProduct_apply, biasCell_apply, truncf_apply, maximumf_apply, mulf_apply, subf_apply,
    extf_apply, broadcast_apply, tanh_apply, logistic_apply, inputProduct_apply, hiddenProduct_apply, biasRow_apply]
  rfl

/-! ## The row -/

theorem zeroOffsets : (![0, 0] : Fin 2 → Nat) = fun _ => 0 := funext fun a => by fin_cases a <;> rfl

/-- What the body leaves in its output block, at row p: the gated-recurrent-unit row of the input block's row p, with
    the weights and biases as the body's other blocks hold them. -/
theorem body_row (x0 : Vec Ideal S4000x16 .f32) (x1 : Vec Ideal S16x32 .f32) (x2 : Vec Ideal S1x32 .f32)
    (x3 : Vec Ideal S32x32 .f32) (x4 : Vec Ideal S1x32 .f32) (x5 : Vec Ideal S16x32 .f32) (x6 : Vec Ideal S1x32 .f32)
    (x7 : Vec Ideal S32x32 .f32) (x8 : Vec Ideal S1x32 .f32) (x9 : Vec Ideal S16x32 .f32) (x10 : Vec Ideal S1x32 .f32)
    (x11 : Vec Ideal S32x32 .f32) (x12 : Vec Ideal S1x32 .f32) (x13 : Vec Ideal S32x1 .f32) (x14 : Vec Ideal S1x1 .f32)
    (p : Fin 4000) (q : Fin 1) :
    out0_15 x0 x1 x2 x3 x4 x5 x6 x7 x8 x9 x10 x11 x12 x13 x14 (ix2 p q)
      = GruRow.out (fun k => x0 (ix2 p k)) (fun k j => x1 (ix2 k j)) (fun j => x2 (ix2 (0 : Fin 1) j))
          (fun j => x4 (ix2 (0 : Fin 1) j)) (fun k j => x9 (ix2 k j)) (fun j => x10 (ix2 (0 : Fin 1) j))
          (fun j => x12 (ix2 (0 : Fin 1) j)) (fun j => x13 (ix2 j q)) (x14 (ix2 (0 : Fin 1) q)) := by
  unfold out0_15
  rw [View.canon_unit_zero zeroOffsets]
  simp only [View.ld_unit_zero (S := S4000x16) zeroOffsets, View.ld_unit_zero (S := S16x32) zeroOffsets,
    View.ld_unit_zero (S := S32x32) zeroOffsets, View.ld_unit_zero (S := S32x1) zeroOffsets,
    View.ld_unit_zero (S := S1x32) zeroOffsets, View.ld_unit_zero (S := S1x1) zeroOffsets]
  rw [stored_apply]
  simp only [updateGate_apply, resetInput_apply, resetBias_apply, zeroState_apply, inputCopy_apply,
    hiddenWeightCopy_apply, inputWeightCopy_apply, hiddenWeightCopy'_apply, readoutCopy_apply]
  exact GruRow.grouped_form (fun k => x0 (ix2 p k)) (fun k j => x1 (ix2 k j)) (fun k j => x5 (ix2 k j))
    (fun k j => x9 (ix2 k j)) (fun k j => x3 (ix2 k j)) (fun k j => x7 (ix2 k j)) (fun k j => x11 (ix2 k j))
    (fun j => x2 (ix2 (0 : Fin 1) j)) (fun j => x4 (ix2 (0 : Fin 1) j)) (fun j => x6 (ix2 (0 : Fin 1) j))
    (fun j => x8 (ix2 (0 : Fin 1) j)) (fun j => x10 (ix2 (0 : Fin 1) j)) (fun j => x12 (ix2 (0 : Fin 1) j))
    (fun j => x13 (ix2 j q)) (x14 (ix2 (0 : Fin 1) q))
    (Ideal.ofBits .bf16 0x0000#16) (Ideal.ofBits .bf16 0x0000#16) (Ideal.ofBits .f32 0x3F800000#32)
    (Ideal.ofBits .f32 0x00000000#32)
    (IdealRules.sign_bit.ideal_zero .bf16) (IdealRules.sign_bit.ideal_zero .bf16)
    (IdealRules.sign_bit.ideal_onePat .f32) Ideal.ofBits_zero_f32

end Cert.KernelIdeal.Row

end
-- ==== Proof.GruArray.lean ====
/-
  The whole result array as one function of the argument arrays.

  The program maps each of the 1000000 input rows through the gated-recurrent-unit row of `GruRow`: entry (r, 0) of
  the result depends on row r of the input only, and on the weights and biases of the update gate, of the candidate and
  of the read-out.  The reset gate's parameters and the hidden-side weights do not occur: the hidden state is zero.
-/
import proofs.«146388_j18511309046057_1_alg».proof.Proof.GruRow
import Idealize.ShloMosaic.Lib.ValueIdx

noncomputable section

namespace Cert.GruRow

open Idealize.ShloMosaic Idealize.ShloMosaic.ValueIdx

/-- The result at `i = (r, 0)`: the row function of the input's row `r`. -/
def result (x : FVec Ideal ⟨2, ![1000000, 16]⟩ .f32) (Wxz : FVec Ideal ⟨2, ![16, 32]⟩ .f32)
    (bxz bhz : FVec Ideal ⟨1, ![32]⟩ .f32) (Wxh : FVec Ideal ⟨2, ![16, 32]⟩ .f32) (bxh bhh : FVec Ideal ⟨1, ![32]⟩ .f32)
    (Wlin : FVec Ideal ⟨2, ![32, 1]⟩ .f32) (blin : FVec Ideal ⟨1, ![1]⟩ .f32) : FVec Ideal ⟨2, ![1000000, 1]⟩ .f32 :=
  fun i => out (fun k => x (ix2 (⟨(i 0).val, (i 0).isLt⟩ : Fin 1000000) k)) (fun k j => Wxz (ix2 k j))
    (fun j => bxz (ix1 j)) (fun j => bhz (ix1 j)) (fun k j => Wxh (ix2 k j)) (fun j => bxh (ix1 j)) (fun j => bhh (ix1 j))
    (fun j => Wlin (ix2 j (0 : Fin 1))) (blin (ix1 (0 : Fin 1)))

end Cert.GruRow

end
-- ==== Proof.KernelArray.lean ====
/-
  From the body's blocks to the whole output array.

  The grid has 250 points; point t stages rows 4000·t … 4000·t + 3999 of the input, and the whole of every weight and
  bias array, and writes back rows 4000·t … 4000·t + 3999 of the output.  The biases reach the body as 1 × 32 rows
  (and the read-out bias as a 1 × 1 block): a vector re-laid as a row keeps its entries in order.  So what point t
  writes back is block t of `GruRow.result` of the argument arrays, the blocks cover every row, and the output
  array after the run is that function.
-/
import proofs.«146388_j18511309046057_1_alg».proof.Proof.Gen.KernelIdeal.Value
import proofs.«146388_j18511309046057_1_alg».proof.Proof.KernelRow
import proofs.«146388_j18511309046057_1_alg».proof.Proof.GruArray
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The bias rows as the region finds them -/

/-- A bias vector of 32 entries reaches the region re-laid as a 1 × 32 row (the update gate's input-side bias; the
    next three are the other biases the value depends on). -/
theorem row_bxz (c : Dev nD) : (V m c main_v0 : S1x32.Idx → EReal)
    = shapeCast S1x32 (m ((c : Thread nD τ).loc main_arg4)) shapeCasts_S32_S1x32 := by
  dsimp only [Gen.V, Gen.hostOps0]; after_results; rfl

theorem row_bhz (c : Dev nD) : (V m c main_v1 : S1x32.Idx → EReal)
    = shapeCast S1x32 (m ((c : Thread nD τ).loc main_arg6)) shapeCasts_S32_S1x32 := by
  dsimp only [Gen.V, Gen.hostOps0]; after_results; rfl

theorem row_bxh (c : Dev nD) : (V m c main_v4 : S1x32.Idx → EReal)
    = shapeCast S1x32 (m ((c : Thread nD τ).loc main_arg12)) shapeCasts_S32_S1x32 := by
  dsimp only [Gen.V, Gen.hostOps0]; after_results; rfl

theorem row_bhh (c : Dev nD) : (V m c main_v5 : S1x32.Idx → EReal)
    = shapeCast S1x32 (m ((c : Thread nD τ).loc main_arg14)) shapeCasts_S32_S1x32 := by
  dsimp only [Gen.V, Gen.hostOps0]; after_results; rfl

/-- The read-out bias as the region finds it: the one-entry vector re-laid as a 1 × 1 block. -/
theorem cell_blin (c : Dev nD) : (V m c main_v6 : S1x1.Idx → EReal)
    = shapeCast S1x1 (m ((c : Thread nD τ).loc main_arg16)) shapeCasts_S1_S1x1 := by
  dsimp only [Gen.V, Gen.hostOps0]; after_results; rfl

/-! ## The block indices, decided over the 250 grid points -/

/-- The input's block moves with the output's block along the rows and stays at column block 0; the output has one
    column block. -/
theorem idx_rows : ∀ t : Fin cfg0.N, win0_0.index t (0 : Fin 2) = win0_15.index t (0 : Fin 2)
    ∧ win0_0.index t (1 : Fin 2) = 0 ∧ win0_15.index t (1 : Fin 2) = 0 :=
  (by decide +kernel : ∀ t : Fin grid0.N, _)

/-- Every weight and bias window stays at block (0, 0): the whole array at every point. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)

/-! ## The blocks the body reads, as entries of the argument arrays -/

/-- Row p of point t's input block is the input's row at which row p of the point's output block sits. -/
theorem read_input (c : Dev nD) (t : Fin cfg0.N) (p : Fin 4000) (q : Fin 1) (k : Fin 16) :
    iblk m c 0 t (ix2 p k) = m ((c : Thread nD τ).loc main_arg0)
      (ix2 (⟨((((cfg0.win 15).blk t).view.emb (ix2 p q)) 0).val, ((((cfg0.win 15).blk t).view.emb (ix2 p q)) 0).isLt⟩ : Fin 1000000) k) := by
  show V m c main_arg0 (((cfg0.win 0).blk t).view.emb (ix2 p k)) = _
  rw [V_main_arg0]
  refine congrArg _ (funext fun a => Fin.ext ?_)
  obtain ⟨e0, e1, e2⟩ := idx_rows t
  match a with
  | ⟨0, _⟩ => show win0_0.index t (0 : Fin 2) * 4000 + 1 * p.val = win0_15.index t (0 : Fin 2) * 4000 + 1 * p.val; omega
  | ⟨1, _⟩ => show win0_0.index t (1 : Fin 2) * 16 + 1 * k.val = k.val; omega
/-- The update gate's input weights. -/
theorem read_Wxz (c : Dev nD) (t : Fin cfg0.N) (k : Fin 16) (j : Fin 32) :
    iblk m c 1 t (ix2 k j) = m ((c : Thread nD τ).loc main_arg3) (ix2 k j) := by
  show V m c main_arg3 (((cfg0.win 1).blk t).view.emb (ix2 k j)) = _
  rw [V_main_arg3]
  refine congrArg _ (funext fun a => Fin.ext ?_)
  obtain ⟨e0, e1⟩ := idx_w1 t
  match a with
  | ⟨0, _⟩ => show win0_1.index t (0 : Fin 2) * 16 + 1 * k.val = k.val; omega
  | ⟨1, _⟩ => show win0_1.index t (1 : Fin 2) * 32 + 1 * j.val = j.val; omega
/-- The candidate's input weights. -/
theorem read_Wxh (c : Dev nD) (t : Fin cfg0.N) (k : Fin 16) (j : Fin 32) :
    iblk m c 9 t (ix2 k j) = m ((c : Thread nD τ).loc main_arg11) (ix2 k j) := by
  show V m c main_arg11 (((cfg0.win 9).blk t).view.emb (ix2 k j)) = _
  rw [V_main_arg11]
  refine congrArg _ (funext fun a => Fin.ext ?_)
  obtain ⟨e0, e1⟩ := idx_w9 t
  match a with
  | ⟨0, _⟩ => show win0_9.index t (0 : Fin 2) * 16 + 1 * k.val = k.val; omega
  | ⟨1, _⟩ => show win0_9.index t (1 : Fin 2) * 32 + 1 * j.val = j.val; omega

/-- The read-out column. -/
theorem read_Wlin (c : Dev nD) (t : Fin cfg0.N) (j : Fin 32) (q : Fin 1) :
    iblk m c 13 t (ix2 j q) = m ((c : Thread nD τ).loc main_arg15) (ix2 j (0 : Fin 1)) := by
  show V m c main_arg15 (((cfg0.win 13).blk t).view.emb (ix2 j q)) = _
  rw [V_main_arg15]
  refine congrArg _ (funext fun a => Fin.ext ?_)
  obtain ⟨e0, e1⟩ := idx_w13 t
  have hq : q.val < 1 := q.isLt
  match a with
  | ⟨0, _⟩ => show win0_13.index t (0 : Fin 2) * 32 + 1 * j.val = j.val; omega
  | ⟨1, _⟩ => show win0_13.index t (1 : Fin 2) * 1 + 1 * q.val = 0; omega
/-- The update gate's input-side bias. -/
theorem read_bxz (c : Dev nD) (t : Fin cfg0.N) (j : Fin 32) :
    iblk m c 2 t (ix2 (0 : Fin 1) j) = m ((c : Thread nD τ).loc main_arg4) (ix1 j) := by
  show V m c main_v0 (((cfg0.win 2).blk t).view.emb (ix2 (0 : Fin 1) j)) = _
  have e : ((cfg0.win 2).blk t).view.emb (ix2 (0 : Fin 1) j) = ix2 (0 : Fin 1) j := funext fun a => Fin.ext (by
    obtain ⟨e0, e1⟩ := idx_w2 t
    match a with
    | ⟨0, _⟩ => show win0_2.index t (0 : Fin 2) * 1 + 1 * 0 = 0; omega
    | ⟨1, _⟩ => show win0_2.index t (1 : Fin 2) * 32 + 1 * j.val = j.val; omega)
  rw [e, row_bxz]
  exact shapeCast_a_1a_apply _ shapeCasts_S32_S1x32 (0 : Fin 1) j
/-- The update gate's hidden-side bias. -/
theorem read_bhz (c : Dev nD) (t : Fin cfg0.N) (j : Fin 32) :
    iblk m c 4 t (ix2 (0 : Fin 1) j) = m ((c : Thread nD τ).loc main_arg6) (ix1 j) := by
  show V m c main_v1 (((cfg0.win 4).blk t).view.emb (ix2 (0 : Fin 1) j)) = _
  have e : ((cfg0.win 4).blk t).view.emb (ix2 (0 : Fin 1) j) = ix2 (0 : Fin 1) j := funext fun a => Fin.ext (by
    obtain ⟨e0, e1⟩ := idx_w4 t
    match a with
    | ⟨0, _⟩ => show win0_4.index t (0 : Fin 2) * 1 + 1 * 0 = 0; omega
    | ⟨1, _⟩ => show win0_4.index t (1 : Fin 2) * 32 + 1 * j.val = j.val; omega)
  rw [e, row_bhz]
  exact shapeCast_a_1a_apply _ shapeCasts_S32_S1x32 (0 : Fin 1) j
/-- The candidate's input-side bias. -/
theorem read_bxh (c : Dev nD) (t : Fin cfg0.N) (j : Fin 32) :
    iblk m c 10 t (ix2 (0 : Fin 1) j) = m ((c : Thread nD τ).loc main_arg12) (ix1 j) := by
  show V m c main_v4 (((cfg0.win 10).blk t).view.emb (ix2 (0 : Fin 1) j)) = _
  have e : ((cfg0.win 10).blk t).view.emb (ix2 (0 : Fin 1) j) = ix2 (0 : Fin 1) j := funext fun a => Fin.ext (by
    obtain ⟨e0, e1⟩ := idx_w10 t
    match a with
    | ⟨0, _⟩ => show win0_10.index t (0 : Fin 2) * 1 + 1 * 0 = 0; omega
    | ⟨1, _⟩ => show win0_10.index t (1 : Fin 2) * 32 + 1 * j.val = j.val; omega)
  rw [e, row_bxh]
  exact shapeCast_a_1a_apply _ shapeCasts_S32_S1x32 (0 : Fin 1) j
/-- The candidate's hidden-side bias. -/
theorem read_bhh (c : Dev nD) (t : Fin cfg0.N) (j : Fin 32) :
    iblk m c 12 t (ix2 (0 : Fin 1) j) = m ((c : Thread nD τ).loc main_arg14) (ix1 j) := by
  show V m c main_v5 (((cfg0.win 12).blk t).view.emb (ix2 (0 : Fin 1) j)) = _
  have e : ((cfg0.win 12).blk t).view.emb (ix2 (0 : Fin 1) j) = ix2 (0 : Fin 1) j := funext fun a => Fin.ext (by
    obtain ⟨e0, e1⟩ := idx_w12 t
    match a with
    | ⟨0, _⟩ => show win0_12.index t (0 : Fin 2) * 1 + 1 * 0 = 0; omega
    | ⟨1, _⟩ => show win0_12.index t (1 : Fin 2) * 32 + 1 * j.val = j.val; omega)
  rw [e, row_bhh]
  exact shapeCast_a_1a_apply _ shapeCasts_S32_S1x32 (0 : Fin 1) j

/-- The read-out bias. -/
theorem read_blin (c : Dev nD) (t : Fin cfg0.N) (q : Fin 1) :
    iblk m c 14 t (ix2 (0 : Fin 1) q) = m ((c : Thread nD τ).loc main_arg16) (ix1 (0 : Fin 1)) := by
  have hq : q = 0 := Subsingleton.elim _ _
  subst hq
  show V m c main_v6 (((cfg0.win 14).blk t).view.emb (ix2 (0 : Fin 1) (0 : Fin 1))) = _
  have e : ((cfg0.win 14).blk t).view.emb (ix2 (0 : Fin 1) (0 : Fin 1)) = ix2 (0 : Fin 1) (0 : Fin 1) := funext fun a => Fin.ext (by
    obtain ⟨e0, e1⟩ := idx_w14 t
    match a with
    | ⟨0, _⟩ => show win0_14.index t (0 : Fin 2) * 1 + 1 * 0 = 0; omega
    | ⟨1, _⟩ => show win0_14.index t (1 : Fin 2) * 1 + 1 * 0 = 0; omega)
  rw [e, cell_blin]
  exact shapeCast_a_1a_apply _ shapeCasts_S1_S1x1 (0 : Fin 1) (0 : Fin 1)

/-! ## What a point writes back, the cover, and the array after the run -/

/-- What point t writes back is block t of the row function of the argument arrays. -/
theorem flushed_eq (c : Dev nD) (t : Fin cfg0.N) :
    (dats m 0 c).flushed 15 t = ((cfg0.win 15).blk t).view.read (Elt Ideal)
      (GruRow.result (m ((c : Thread nD τ).loc main_arg0)) (m ((c : Thread nD τ).loc main_arg3)) (m ((c : Thread nD τ).loc main_arg4)) (m ((c : Thread nD τ).loc main_arg6))
        (m ((c : Thread nD τ).loc main_arg11)) (m ((c : Thread nD τ).loc main_arg12)) (m ((c : Thread nD τ).loc main_arg14)) (m ((c : Thread nD τ).loc main_arg15)) (m ((c : Thread nD τ).loc main_arg16))) := by
  rw [Value.flushed15]
  funext y
  obtain ⟨p, q, rfl⟩ : ∃ (p : Fin 4000) (q : Fin 1), y = ix2 p q := ⟨y 0, y 1, eq_ix2 y⟩
  show out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (ix2 p q)
    = (GruRow.result (m ((c : Thread nD τ).loc main_arg0)) (m ((c : Thread nD τ).loc main_arg3)) (m ((c : Thread nD τ).loc main_arg4)) (m ((c : Thread nD τ).loc main_arg6))
        (m ((c : Thread nD τ).loc main_arg11)) (m ((c : Thread nD τ).loc main_arg12)) (m ((c : Thread nD τ).loc main_arg14)) (m ((c : Thread nD τ).loc main_arg15)) (m ((c : Thread nD τ).loc main_arg16))) (((cfg0.win 15).blk t).view.emb (ix2 p q))
  refine (Row.body_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  simp only [read_input m c t p q, read_Wxz m c t, read_Wxh m c t, read_Wlin m c t, read_bxz m c t, read_bhz m c t,
    read_bxh m c t, read_bhh m c t, read_blin m c t]
  rfl

/-- An index of the output array is in point t's block iff each coordinate is in the block's range on its axis. -/
theorem mem_blk (t : Fin cfg0.N) (i : S1000000x1.Idx) :
    i ∈ ((cfg0.win 15).blk t).view.set ↔ ∀ a : Fin 2, win0_15.index t a * S4000x1.size a ≤ (i a).val
      ∧ (i a).val < win0_15.index t a * S4000x1.size a + S4000x1.size a := by
  show i ∈ ((View.whole main_v7).slice (win0_15.rect t)).set ↔ _
  rw [View.set_slice_whole, Rect.mem_set_unit]
  exact Iff.rfl

/-- Every row of the output is in the block of the point numbered by the row's quotient by 4000. -/
theorem cover (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  have hN : grid0.N = 250 := Gen.N_0
  have ht : (i 0).val / 4000 < cfg0.N := by show (i 0).val / 4000 < grid0.N; omega
  refine ⟨⟨(i 0).val / 4000, ht⟩, flush0_15 _, ?_⟩
  rw [mem_blk]
  have h0 := Value.idx_pt15 ⟨(i 0).val / 4000, ht⟩
  obtain ⟨-, -, h1⟩ := idx_rows ⟨(i 0).val / 4000, ht⟩
  intro a
  match a with
  | ⟨0, _⟩ =>
    show win0_15.index ⟨(i 0).val / 4000, ht⟩ (0 : Fin 2) * 4000 ≤ (i 0).val
      ∧ (i 0).val < win0_15.index ⟨(i 0).val / 4000, ht⟩ (0 : Fin 2) * 4000 + 4000
    have h0' : win0_15.index ⟨(i 0).val / 4000, ht⟩ (0 : Fin 2) = (i 0).val / 4000 := h0
    omega
  | ⟨1, _⟩ =>
    show win0_15.index ⟨(i 0).val / 4000, ht⟩ (1 : Fin 2) * 1 ≤ (i 1).val
      ∧ (i 1).val < win0_15.index ⟨(i 0).val / 4000, ht⟩ (1 : Fin 2) * 1 + 1
    omega

/-- The output array after the run is the row function of the argument arrays, row by row. -/
theorem final (c : Dev nD) : (dats m 0 c).arrAt 15 cfg0.N
    = (GruRow.result (m ((c : Thread nD τ).loc main_arg0)) (m ((c : Thread nD τ).loc main_arg3)) (m ((c : Thread nD τ).loc main_arg4)) (m ((c : Thread nD τ).loc main_arg6))
        (m ((c : Thread nD τ).loc main_arg11)) (m ((c : Thread nD τ).loc main_arg12)) (m ((c : Thread nD τ).loc main_arg14)) (m ((c : Thread nD τ).loc main_arg15)) (m ((c : Thread nD τ).loc main_arg16))) :=
  (dats m 0 c).arrAt_eq_of_cover 15 _ (fun t _ => flushed_eq m c t) cover

/-- The kernel's run: it ends with the result array at the row function of the arguments, the arguments unchanged. -/
theorem run : θ_run defs (onTc (τ := τ) (main (F := Ideal))) ⟨m, fun _ => 0, ρ⟩ fun r => ∀ c : Dev nD,
      r.2.mem ((c : Thread nD τ).loc main_v7) = (GruRow.result (m ((c : Thread nD τ).loc main_arg0)) (m ((c : Thread nD τ).loc main_arg3)) (m ((c : Thread nD τ).loc main_arg4)) (m ((c : Thread nD τ).loc main_arg6))
        (m ((c : Thread nD τ).loc main_arg11)) (m ((c : Thread nD τ).loc main_arg12)) (m ((c : Thread nD τ).loc main_arg14)) (m ((c : Thread nD τ).loc main_arg15)) (m ((c : Thread nD τ).loc main_arg16)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.KernelIdeal.Whole

end
-- ==== Proof.RefRow.lean ====
/-
  The reference, read at an index.

  The reference computes the same gated-recurrent-unit step on the whole 1000000 × 32 arrays: three products of the
  input with the input weights, the products of the zero state with the hidden weights, the biases broadcast to every
  row, the logistic function written out as 1 / (1 + exp (−a)), the hyperbolic tangent, the rectifier and the read-out
  product.  Read at the result's index (r, 0), and at the hidden unit j under the read-out sum, every operation reads
  its operands at one index each; the index each argument array is finally read at is named below by coordinates:
  the input at (r, k), a weight matrix at (k, j), a bias at j, the read-out column at (j, 0), the read-out bias at 0.
  With those, the reference's term at (r, 0) is the left-grouped form of the row (`GruRow.left_form`), so it is
  `GruRow.result` of the arguments.
-/
import proofs.«146388_j18511309046057_1_alg».proof.Proof.Gen.ReferenceIdeal.Read
import proofs.«146388_j18511309046057_1_alg».proof.Proof.GruArray
import Idealize.ShloMosaic.PureOps.IdealRules

set_option maxRecDepth 16384

noncomputable section

open scoped BigOperators

namespace Cert.ReferenceIdeal.RefValue

open Cert.ReferenceIdeal Cert.ReferenceIdeal.Read Idealize.ShloMosaic Idealize.ShloMosaic.ValueIdx

/-! ## Where each argument array is read -/

/-- The update gate's input product reads the input at (r, k) -/
theorem input_update (i : S1000000x1.Idx) (j : Fin 32) (k : Fin 16) :
    lidx_main_v1 (lidx_main_v48 i j) k = ix2 (⟨(i 0).val, (i 0).isLt⟩ : Fin 1000000) k :=
  funext fun a => Fin.ext (by match a with | ⟨0, _⟩ => rfl | ⟨1, _⟩ => rfl)
/-- and its weights at (k, j). -/
theorem weight_update (i : S1000000x1.Idx) (j : Fin 32) (k : Fin 16) :
    ridx_main_v1 (lidx_main_v48 i j) k = ix2 k j :=
  funext fun a => Fin.ext (by match a with | ⟨0, _⟩ => rfl | ⟨1, _⟩ => rfl)
/-- The update gate's two biases are read at j. -/
theorem bias_update_x (i : S1000000x1.Idx) (j : Fin 32) : idx_main_v2 (idx_main_v3 (lidx_main_v48 i j)) = ix1 j :=
  funext fun a => Fin.ext (by match a with | ⟨0, _⟩ => rfl)
theorem bias_update_h (i : S1000000x1.Idx) (j : Fin 32) : idx_main_v7 (idx_main_v8 (lidx_main_v48 i j)) = ix1 j :=
  funext fun a => Fin.ext (by match a with | ⟨0, _⟩ => rfl)
/-- The candidate's input product reads the input at (r, k) -/
theorem input_candidate (i : S1000000x1.Idx) (j : Fin 32) (k : Fin 16) :
    lidx_main_v31 (lidx_main_v48 i j) k = ix2 (⟨(i 0).val, (i 0).isLt⟩ : Fin 1000000) k :=
  funext fun a => Fin.ext (by match a with | ⟨0, _⟩ => rfl | ⟨1, _⟩ => rfl)
/-- and its weights at (k, j). -/
theorem weight_candidate (i : S1000000x1.Idx) (j : Fin 32) (k : Fin 16) :
    ridx_main_v31 (lidx_main_v48 i j) k = ix2 k j :=
  funext fun a => Fin.ext (by match a with | ⟨0, _⟩ => rfl | ⟨1, _⟩ => rfl)
/-- The candidate's two biases are read at j. -/
theorem bias_candidate_x (i : S1000000x1.Idx) (j : Fin 32) : idx_main_v32 (idx_main_v33 (lidx_main_v48 i j)) = ix1 j :=
  funext fun a => Fin.ext (by match a with | ⟨0, _⟩ => rfl)
theorem bias_candidate_h (i : S1000000x1.Idx) (j : Fin 32) : idx_main_v38 (idx_main_v39 (lidx_main_v48 i j)) = ix1 j :=
  funext fun a => Fin.ext (by match a with | ⟨0, _⟩ => rfl)
/-- The read-out column is read at (j, 0): the result has one column. -/
theorem weight_readout (i : S1000000x1.Idx) (j : Fin 32) : ridx_main_v48 i j = ix2 j (0 : Fin 1) :=
  funext fun a => Fin.ext (by
    match a with
    | ⟨0, _⟩ => rfl
    | ⟨1, _⟩ => show (i 1).val = 0; have h : (i 1).val < 1 := (i 1).isLt; omega)
/-- The read-out bias is read at its one entry. -/
theorem bias_readout (i : S1000000x1.Idx) : idx_main_v49 (idx_main_v50 i) = ix1 (0 : Fin 1) :=
  funext fun a => Fin.ext (by match a with | ⟨0, _⟩ => rfl)

/-! ## The reference's result is the row function of each input row -/

theorem result_eq (x0 : (⟨S1000000x16, .f32⟩ : BufTy).Contents (Elt Ideal)) (x3 : (⟨S16x32, .f32⟩ : BufTy).Contents (Elt Ideal)) (x4 : (⟨S32, .f32⟩ : BufTy).Contents (Elt Ideal)) (x5 : (⟨S32x32, .f32⟩ : BufTy).Contents (Elt Ideal))
    (x6 : (⟨S32, .f32⟩ : BufTy).Contents (Elt Ideal)) (x7 : (⟨S16x32, .f32⟩ : BufTy).Contents (Elt Ideal)) (x8 : (⟨S32, .f32⟩ : BufTy).Contents (Elt Ideal)) (x9 : (⟨S32x32, .f32⟩ : BufTy).Contents (Elt Ideal))
    (x10 : (⟨S32, .f32⟩ : BufTy).Contents (Elt Ideal)) (x11 : (⟨S16x32, .f32⟩ : BufTy).Contents (Elt Ideal)) (x12 : (⟨S32, .f32⟩ : BufTy).Contents (Elt Ideal)) (x13 : (⟨S32x32, .f32⟩ : BufTy).Contents (Elt Ideal))
    (x14 : (⟨S32, .f32⟩ : BufTy).Contents (Elt Ideal)) (x15 : (⟨S32x1, .f32⟩ : BufTy).Contents (Elt Ideal)) (x16 : (⟨S1, .f32⟩ : BufTy).Contents (Elt Ideal)) :
    val_main_v51 (F := Ideal) x0 x3 x4 x5 x6 x7 x8 x9 x10 x11 x12 x13 x14 x15 x16
      = GruRow.result x0 x3 x4 x6 x11 x12 x14 x15 x16 := by
  funext i
  simp only [
    val_main_cst_apply, val_main_v0_apply, val_main_v1_apply, val_main_v2_apply, val_main_v3_apply, val_main_v4_apply,
    val_main_v5_apply, val_main_v6_apply, val_main_v7_apply, val_main_v8_apply, val_main_v9_apply, val_main_v10_apply,
    val_main_v11_apply, val_main_cst_0_apply, val_main_v12_apply, val_main_v13_apply, val_main_cst_1_apply, val_main_v14_apply,
    val_main_v15_apply, val_main_v16_apply, val_main_v17_apply, val_main_v18_apply, val_main_v19_apply, val_main_v20_apply,
    val_main_v21_apply, val_main_v22_apply, val_main_v23_apply, val_main_v24_apply, val_main_v25_apply, val_main_v26_apply,
    val_main_cst_2_apply, val_main_v27_apply, val_main_v28_apply, val_main_cst_3_apply, val_main_v29_apply, val_main_v30_apply,
    val_main_v31_apply, val_main_v32_apply, val_main_v33_apply, val_main_v34_apply, val_main_v35_apply, val_main_v36_apply,
    val_main_v37_apply, val_main_v38_apply, val_main_v39_apply, val_main_v40_apply, val_main_v41_apply, val_main_v42_apply,
    val_main_cst_4_apply, val_main_v43_apply, val_main_v44_apply, val_main_v45_apply, val_main_v46_apply, val_main_call0_cst_apply,
    val_main_call0_v0_apply, val_main_v47_apply, val_main_v48_apply, val_main_v49_apply, val_main_v50_apply, val_main_v51_apply]
  simp only [input_update, weight_update, bias_update_x, bias_update_h, input_candidate, weight_candidate,
    bias_candidate_x, bias_candidate_h, weight_readout, bias_readout]
  simp only [Ideal.addf_def, Ideal.mulf_def, Ideal.subf_def, Ideal.maximumf_def, Ideal.hostDivf_def,
    Ideal.hostUnary_exp_def, Ideal.hostNegf_def, Ideal.negf_def, Ideal.hostUnary_tanh_def, Ideal.ofBits_def]
  exact GruRow.left_form (fun k => x0 (ix2 (⟨(i 0).val, (i 0).isLt⟩ : Fin 1000000) k)) (fun k j => x3 (ix2 k j))
    (fun k j => x11 (ix2 k j)) _ _ _ (fun j => x4 (ix1 j)) (fun j => x6 (ix1 j)) (fun j => x12 (ix1 j))
    (fun j => x14 (ix1 j)) (fun j => x15 (ix2 j (0 : Fin 1))) (x16 (ix1 (0 : Fin 1)))
    (Ideal.ofBits .f32 0x00000000#32) (Ideal.ofBits .f32 0x3F800000#32) (Ideal.ofBits .f32 0x00000000#32)
    Ideal.ofBits_zero_f32 (IdealRules.sign_bit.ideal_onePat .f32) Ideal.ofBits_zero_f32

end Cert.ReferenceIdeal.RefValue

end
-- ==== Proof.lean ====
/-
  A gated-recurrent-unit step from the zero hidden state with a rectified linear read-out, tiled over rows, against
  its reference on whole arrays: equal at the ideal values.

  Both programs map each of the 1000000 input rows x through

      z = logistic ((x·Wxz + bxz) + bhz),   c = tanh ((x·Wxh + bxh) + bhh),   out = max ((1 − z)·c, 0) · Wlin + blin

  (`GruRow`).  The hidden state is zero, so the reset gate and all hidden-side weights enter only through products
  with zero; these vanish on the extended reals whatever the other factor is, so no input needs to be finite.  The
  kernel handles 4000 rows per grid point and uses the logistic function itself; the reference works on whole arrays,
  groups the sums from the left and spells the logistic function 1 / (1 + exp (−a)), which is its definition on the
  extended reals.  Changes of number format are the identity there.

  `KernelRow` reads the kernel's body at a row, `KernelArray` assembles the 250 blocks into the output array,
  `RefRow` reads the reference at an index; both sides are `GruRow.result` of the argument arrays.  The three frames
  are the generated ones (the reference's is its generated run with the result dropped), and the idealization
  rewrote no operation.
-/
import proofs.«146388_j18511309046057_1_alg».proof.Defs
import proofs.«146388_j18511309046057_1_alg».proof.Proof.Gen.Kernel
import proofs.«146388_j18511309046057_1_alg».proof.Proof.Gen.Kernel.Skeleton
import proofs.«146388_j18511309046057_1_alg».proof.Proof.Gen.Kernel.Launch
import proofs.«146388_j18511309046057_1_alg».proof.Proof.Gen.Kernel.Points
import proofs.«146388_j18511309046057_1_alg».proof.Proof.Gen.Kernel.Frame
import proofs.«146388_j18511309046057_1_alg».proof.Proof.Gen.KernelIdeal
import proofs.«146388_j18511309046057_1_alg».proof.Proof.Gen.KernelIdeal.Skeleton
import proofs.«146388_j18511309046057_1_alg».proof.Proof.Gen.KernelIdeal.Launch
import proofs.«146388_j18511309046057_1_alg».proof.Proof.Gen.KernelIdeal.Points
import proofs.«146388_j18511309046057_1_alg».proof.Proof.Gen.KernelIdeal.Frame
import proofs.«146388_j18511309046057_1_alg».proof.Proof.Gen.ReferenceIdeal
import proofs.«146388_j18511309046057_1_alg».proof.Proof.Gen.Pre_finite_inputs
import proofs.«146388_j18511309046057_1_alg».proof.Proof.Gen.KernelIdeal.Value
import proofs.«146388_j18511309046057_1_alg».proof.Proof.Gen.ReferenceIdeal.Run
import proofs.«146388_j18511309046057_1_alg».proof.Proof.Gen.ReferenceIdeal.Read
import proofs.«146388_j18511309046057_1_alg».proof.Proof.KernelArray
import proofs.«146388_j18511309046057_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at `GruRow.result` of those
    arguments: the kernel by its blocks (`KernelIdeal.Whole.run`), the reference by its operations read at an index
    (`ReferenceIdeal.RefValue.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, -, a3, a4, -, a6, -, -, -, -, a11, a12, -, a14, a15, a16⟩ := hagree c
  rw [Cert.ReferenceIdeal.Read.val_main_v51_eq, Cert.ReferenceIdeal.RefValue.result_eq, a0, a3, a4, a6, a11, a12, a14,
    a15, a16]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
